-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S64x7 1) : IVec S_ 1 :=
  let main_c_5 : IVec S_ 1 := constantI S_ 1 1#1
  let main_v17 : IVec S_ 1 := (fun x v => Host.reduce IntOp.andi x v reducesTo_S64x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x7 .f32) (main_arg4 : FVec F S7 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x7 .f32 := Host.absf main_arg3
  let main_cst_4 : FVec F S_ .f32 := constant S_ .f32 0x7F800000#32
  let main_v15 : FVec F S64x7 .f32 := broadcastInDim S64x7 ![] bcast_S_S64x7 main_cst_4
  let main_v16 : IVec S64x7 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x7 : Shape := ⟨2, ![100000, 7]⟩
abbrev S5000x7 : Shape := ⟨2, ![5000, 7]⟩
abbrev S1700000x7 : Shape := ⟨2, ![1700000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x7, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x7, .f32⟩
  | .hbm, ⟨79, _⟩ => ⟨S1700000x1, .f32⟩
  | .hbm, ⟨80, _⟩ => ⟨S1700000x7, .f32⟩
  | .hbm, ⟨81, _⟩ => ⟨S1700000x7, .f32⟩
  | .hbm, ⟨82, _⟩ => ⟨S_, .f32⟩
  | .hbm, ⟨83, _⟩ => ⟨S100000x7, .f32⟩
  | .hbm, ⟨84, _⟩ => ⟨S1700000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x7, .f32⟩
  | .local _ .vmem, ⟨8, _⟩ => ⟨S5000x7, .f32⟩
  | .local _ .vmem, ⟨9, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x7_S64x7_0_0 : ∀ a, (![0, 0] : Fin 2 → Nat) a + S64x7.size a ≤ S64x7.size a
  h_S64x7 : 0 < S64x7.numel
  inb_S5000x7_S5000x7_0_0 : ∀ a, (![0, 0] : Fin 2 → Nat) a + S5000x7.size a ≤ S5000x7.size a
  h_S5000x7 : 0 < S5000x7.numel
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x7_S5000x7_1_0_0_1_n_n_wf : DotDims.WF S5000x64 S64x7 S5000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x7.size a ≤ S64x7.size a
  hwx1_1 : ∀ i : grid1.Coords, EltTy.bits .f32 = 32 ∨ (Rect.block (s := S64x7) S64x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x7, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x7, .f32⟩
  | .hbm, ⟨79, _⟩ => ⟨S1700000x1, .f32⟩
  | .hbm, ⟨80, _⟩ => ⟨S1700000x7, .f32⟩
  | .hbm, ⟨81, _⟩ => ⟨S1700000x7, .f32⟩
  | .hbm, ⟨82, _⟩ => ⟨S_, .f32⟩
  | .hbm, ⟨83, _⟩ => ⟨S100000x7, .f32⟩
  | .hbm, ⟨84, _⟩ => ⟨S1700000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x7_S100000x7_1_0_0_1_n_n_wf : DotDims.WF S100000x64 S64x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.KernelRun.lean ====
/-
  The idealized kernel's run with its RESULT named. The program is seven segments: three stretches of array operations
  (the edge lists, the degree normalisation, the edge weights), the first dense product as a pipelined region, the first
  aggregation, the second dense product as a pipelined region, the second aggregation. Every weakly fair execution
  terminates without a fault; the result array ends at the last boundary's contents `Gen.W7` (the fold of all seven
  segments from the launch memory), and the six argument arrays end as launched.
-/
import proofs.«124988_j66297115181468_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the seven segments, read against the final state: every buffer that outlives the kernels holds what the
    last boundary's contents say. -/
theorem run_W7 : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer and the six argument buffers, read off the last boundary's contents. -/
theorem run_main : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v65 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_W7 m ρ)

end Cert.KernelIdeal.Run

end
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.Spec.lean ====
/-
  The mathematics of the two programs, stated once. Both compute a two-layer graph convolution over N = 100000 nodes
  and E = 1600000 edges, each node also joined to itself (E' = 1700000 edges in all):

      out = A · ((A · (x · W1) + b1) · W2) + b2,        A[v, u] = Σ_{edges e : u → v} norm e,

  where `norm e = dinv (src e) · dinv (dst e)`, `dinv v = 1 / sqrt (deg v)` where the in-degree `deg v` is positive and
  0 elsewhere. Everything but the two dense products `· W1`, `· W2` is the SAME sequence of array operations in both
  programs: it is named here (`srcOf`, `dstOf`, `normOf`, `aggregate64`, `aggregate7`) and never opened again. The
  dense products are stated index by index as the sums `LibDense.denseProd`: the one thing the two programs compute
  differently (one by a row-blocked matrix unit product into a zero accumulator, the other by one whole dot_general).
-/
import proofs.«124988_j66297115181468_2_alg».proof.Proof.Gen.ReferenceIdeal
import Idealize.ShloMosaic.PureOps.Ideal
import Idealize.ShloMosaic.Lib.ValueIdx
import proofs.«124988_j66297115181468_2_alg».proof.Proof.LibDense

noncomputable section

namespace Cert.Gcn

open Cert.ReferenceIdeal Cert.ReferenceIdeal.Gen Idealize.ShloMosaic Idealize.ShloMosaic.ValueIdx

variable {F : FTy → Type} [FloatOps F]

/-! ## The edge lists and the edge weights (functions of `edge_index` alone) -/

/-- Row `r` of `edge_index` followed by 0, 1, …, N − 1 (the self loops): `r = 0` the edges' sources, `r = 1` their targets. -/
def srcOf (e : S2x1600000.Idx → BitVec 32) : S1700000.Idx → BitVec 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0
def dstOf (e : S2x1600000.Idx → BitVec 32) : S1700000.Idx → BitVec 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node list as gather indices: a negative entry counts from the end (N is added to it), and the list becomes a column. -/
def gatherIdx (s : S1700000.Idx → BitVec 32) : S1700000x1.Idx → BitVec 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- A node list as scatter indices: the list as a column. -/
def scatterIdx (d : S1700000.Idx → BitVec 32) : S1700000x1.Idx → BitVec 32 :=
  broadcastInDim S1700000x1 ![0] bcast_S1700000_S1700000x1_0 d

/-- The in-degree of every node: one added at its target for every edge. -/
def degOf (d : S1700000.Idx → BitVec 32) : FVec F S100000 .f32 :=
  Host.scatterAdd scatter_S100000_S1700000x1_S1700000_n_0_0_1 (broadcastInDim S100000 ![] bcast_S_S100000 (constant S_ .f32 0x00000000#32)) (scatterIdx d) (broadcastInDim S1700000 ![] bcast_S_S1700000 (constant S_ .f32 0x3F800000#32))

/-- `1 / sqrt deg` where the degree is positive, 0 elsewhere. -/
def dinvOf (d : S1700000.Idx → BitVec 32) : FVec F S100000 .f32 :=
  select (cmpf (F := F) .ogt (degOf d) (broadcastInDim S100000 ![] bcast_S_S100000 (constant S_ .f32 0x00000000#32))) (Host.divf (broadcastInDim S100000 ![] bcast_S_S100000 (constant S_ .f32 0x3F800000#32)) (Host.sqrt (degOf d))) (broadcastInDim S100000 ![] bcast_S_S100000 (id (constant S_ .f32 0x00000000#32)))

/-- The weight of every edge: `dinv` at its source times `dinv` at its target. -/
def normOf (s d : S1700000.Idx → BitVec 32) : FVec F S1700000 .f32 :=
  mulf (Host.gather gather_S100000_S1700000x1_S1700000_n_0_n_n_0_1_1 (dinvOf (F := F) d) (gatherIdx s)) (Host.gather gather_S100000_S1700000x1_S1700000_n_0_n_n_0_1_1 (dinvOf (F := F) d) (gatherIdx d))

/-! ## One aggregation step: gather the rows at the sources, weigh them, add them up at the targets, add the bias -/

def aggregate64 (p : FVec F S100000x64 .f32) (s d : S1700000.Idx → BitVec 32) (w : FVec F S1700000 .f32) (b : FVec F S64 .f32) : FVec F S100000x64 .f32 :=
  addf (Host.scatterAdd scatter_S100000x64_S1700000x1_S1700000x64_1_0_0_1 (broadcastInDim S100000x64 ![] bcast_S_S100000x64 (constant S_ .f32 0x00000000#32)) (scatterIdx d) (mulf (Host.gather gather_S100000x64_S1700000x1_S1700000x64_1_0_n_n_0_1_164 p (gatherIdx s)) (broadcastInDim S1700000x64 ![0, 1] bcast_S1700000x1_S1700000x64_0_1 (broadcastInDim S1700000x1 ![0] bcast_S1700000_S1700000x1_0 w)))) (broadcastInDim S100000x64 ![0, 1] bcast_S1x64_S100000x64_0_1 (broadcastInDim S1x64 ![1] bcast_S64_S1x64_1 b))

def aggregate7 (p : FVec F S100000x7 .f32) (s d : S1700000.Idx → BitVec 32) (w : FVec F S1700000 .f32) (b : FVec F S7 .f32) : FVec F S100000x7 .f32 :=
  addf (Host.scatterAdd scatter_S100000x7_S1700000x1_S1700000x7_1_0_0_1 (broadcastInDim S100000x7 ![] bcast_S_S100000x7 (constant S_ .f32 0x00000000#32)) (scatterIdx d) (mulf (Host.gather gather_S100000x7_S1700000x1_S1700000x7_1_0_n_n_0_1_17 p (gatherIdx s)) (broadcastInDim S1700000x7 ![0, 1] bcast_S1700000x1_S1700000x7_0_1 (broadcastInDim S1700000x1 ![0] bcast_S1700000_S1700000x1_0 w)))) (broadcastInDim S100000x7 ![0, 1] bcast_S1x7_S100000x7_0_1 (broadcastInDim S1x7 ![1] bcast_S7_S1x7_1 b))

/-! ## The whole network on the extended reals

The two dense products are `LibDense.denseProd`: `(x · W1)[r, q] = Σ_k x[r, k] · W1[k, q]` (128 terms) and
`(h · W2)[r, q] = Σ_k h[r, k] · W2[k, q]` (64 terms). -/

/-- The whole network as one function of the six argument arrays. -/
def network (x : S100000x128.Idx → EReal) (w1 : S128x64.Idx → EReal) (b1 : S64.Idx → EReal) (w2 : S64x7.Idx → EReal)
    (b2 : S7.Idx → EReal) (e : S2x1600000.Idx → BitVec 32) : S100000x7.Idx → EReal :=
  aggregate7 (F := Ideal) (LibDense.denseProd (aggregate64 (F := Ideal) (LibDense.denseProd x w1) (srcOf e) (dstOf e) (normOf (F := Ideal) (srcOf e) (dstOf e)) b1) w2)
    (srcOf e) (dstOf e) (normOf (F := Ideal) (srcOf e) (dstOf e)) b2

end Cert.Gcn

end
-- ==== Proof.KernelHost.lean ====
/-
  The idealized kernel's five stretches of array operations, each read as a function of the buffers it finds.

  For ANY contents `V` of the device's buffers, the contents after a stretch (`StableHlo.after`) hold, at the buffers
  later segments read: the two edge lists and the pieces of `1 / sqrt deg` (stretch 0), `dinv` itself (the `where`,
  stretch 0_1), the edge weights (stretch 0_2), the first aggregation of whatever the first dense product left
  (stretch 1), the second aggregation of whatever the second dense product left (stretch 2) — each the function
  `Cert.Gcn` names — and every buffer a stretch does not write as it was.
-/
import proofs.«124988_j66297115181468_2_alg».proof.Proof.Gen.KernelIdeal.Launch
import proofs.«124988_j66297115181468_2_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F] (V : Valuation τ sig (Elt F))

/-- A buffer none of a stretch's operations writes keeps its contents: every operation's result buffer is another one. -/
macro "stretch_keeps" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Stretch 0: the edge lists with the self loops, the degrees, and the two branches of `dinv` -/

theorem src_after0 : after hostOps0 V (Proc.devRef .tc main_v3) = Gcn.srcOf (V (Proc.devRef .tc main_arg5)) := by
  after_results; rfl
theorem dst_after0 : after hostOps0 V (Proc.devRef .tc main_v6) = Gcn.dstOf (V (Proc.devRef .tc main_arg5)) := by
  after_results; rfl
theorem pos_after0 : after hostOps0 V (Proc.devRef .tc main_v12)
    = cmpf (F := F) .ogt (Gcn.degOf (F := F) (Gcn.dstOf (V (Proc.devRef .tc main_arg5)))) (broadcastInDim S100000 ![] bcast_S_S100000 (constant S_ .f32 0x00000000#32)) := by
  after_results; rfl
theorem rsq_after0 : after hostOps0 V (Proc.devRef .tc main_v15)
    = Host.divf (broadcastInDim S100000 ![] bcast_S_S100000 (constant S_ .f32 0x3F800000#32)) (Host.sqrt (Gcn.degOf (F := F) (Gcn.dstOf (V (Proc.devRef .tc main_arg5))))) := by
  after_results; rfl
theorem zero_after0 : after hostOps0 V (Proc.devRef .tc main_cst_3) = constant (F := F) S_ .f32 0x00000000#32 := by
  after_results
theorem keeps0 : after hostOps0 V (Proc.devRef .tc main_arg0) = V (Proc.devRef .tc main_arg0)
    ∧ after hostOps0 V (Proc.devRef .tc main_arg1) = V (Proc.devRef .tc main_arg1)
    ∧ after hostOps0 V (Proc.devRef .tc main_arg2) = V (Proc.devRef .tc main_arg2)
    ∧ after hostOps0 V (Proc.devRef .tc main_arg3) = V (Proc.devRef .tc main_arg3)
    ∧ after hostOps0 V (Proc.devRef .tc main_arg4) = V (Proc.devRef .tc main_arg4) :=
  ⟨by stretch_keeps, by stretch_keeps, by stretch_keeps, by stretch_keeps, by stretch_keeps⟩

/-! ## Stretch 0_1: the `where` -/

theorem dinv_after0_1 : after hostOps0_1 V (Proc.devRef .tc main_v16)
    = select (V (Proc.devRef .tc main_v12)) (V (Proc.devRef .tc main_v15)) (broadcastInDim S100000 ![] bcast_S_S100000 (id (V (Proc.devRef .tc main_cst_3)))) := by
  after_results; rfl
theorem keeps0_1 : after hostOps0_1 V (Proc.devRef .tc main_v3) = V (Proc.devRef .tc main_v3)
    ∧ after hostOps0_1 V (Proc.devRef .tc main_v6) = V (Proc.devRef .tc main_v6)
    ∧ after hostOps0_1 V (Proc.devRef .tc main_arg0) = V (Proc.devRef .tc main_arg0)
    ∧ after hostOps0_1 V (Proc.devRef .tc main_arg1) = V (Proc.devRef .tc main_arg1)
    ∧ after hostOps0_1 V (Proc.devRef .tc main_arg2) = V (Proc.devRef .tc main_arg2)
    ∧ after hostOps0_1 V (Proc.devRef .tc main_arg3) = V (Proc.devRef .tc main_arg3)
    ∧ after hostOps0_1 V (Proc.devRef .tc main_arg4) = V (Proc.devRef .tc main_arg4) :=
  ⟨by stretch_keeps, by stretch_keeps, by stretch_keeps, by stretch_keeps, by stretch_keeps, by stretch_keeps, by stretch_keeps⟩

/-! ## Stretch 0_2: the edge weights -/

set_option maxHeartbeats 4000000 in
theorem norm_after0_2 : after hostOps0_2 V (Proc.devRef .tc main_v31)
    = mulf (Host.gather gather_S100000_S1700000x1_S1700000_n_0_n_n_0_1_1 (V (Proc.devRef .tc main_v16)) (Gcn.gatherIdx (V (Proc.devRef .tc main_v3))))
        (Host.gather gather_S100000_S1700000x1_S1700000_n_0_n_n_0_1_1 (V (Proc.devRef .tc main_v16)) (Gcn.gatherIdx (V (Proc.devRef .tc main_v6)))) := by
  after_results_simp
  rfl
theorem keeps0_2 : after hostOps0_2 V (Proc.devRef .tc main_v3) = V (Proc.devRef .tc main_v3)
    ∧ after hostOps0_2 V (Proc.devRef .tc main_v6) = V (Proc.devRef .tc main_v6)
    ∧ after hostOps0_2 V (Proc.devRef .tc main_arg0) = V (Proc.devRef .tc main_arg0)
    ∧ after hostOps0_2 V (Proc.devRef .tc main_arg1) = V (Proc.devRef .tc main_arg1)
    ∧ after hostOps0_2 V (Proc.devRef .tc main_arg2) = V (Proc.devRef .tc main_arg2)
    ∧ after hostOps0_2 V (Proc.devRef .tc main_arg3) = V (Proc.devRef .tc main_arg3)
    ∧ after hostOps0_2 V (Proc.devRef .tc main_arg4) = V (Proc.devRef .tc main_arg4) :=
  ⟨by stretch_keeps, by stretch_keeps, by stretch_keeps, by stretch_keeps, by stretch_keeps, by stretch_keeps, by stretch_keeps⟩

/-! ## Stretch 1: the first aggregation -/

set_option maxHeartbeats 4000000 in
theorem hidden_after1 : after hostOps1 V (Proc.devRef .tc main_v48)
    = Gcn.aggregate64 (F := F) (V (Proc.devRef .tc main_v32)) (V (Proc.devRef .tc main_v3)) (V (Proc.devRef .tc main_v6))
        (V (Proc.devRef .tc main_v31)) (V (Proc.devRef .tc main_arg2)) := by
  after_results_simp
  rfl
theorem keeps1 : after hostOps1 V (Proc.devRef .tc main_v3) = V (Proc.devRef .tc main_v3)
    ∧ after hostOps1 V (Proc.devRef .tc main_v6) = V (Proc.devRef .tc main_v6)
    ∧ after hostOps1 V (Proc.devRef .tc main_v31) = V (Proc.devRef .tc main_v31)
    ∧ after hostOps1 V (Proc.devRef .tc main_arg3) = V (Proc.devRef .tc main_arg3)
    ∧ after hostOps1 V (Proc.devRef .tc main_arg4) = V (Proc.devRef .tc main_arg4) :=
  ⟨by stretch_keeps, by stretch_keeps, by stretch_keeps, by stretch_keeps, by stretch_keeps⟩

/-! ## Stretch 2: the second aggregation -/

set_option maxHeartbeats 4000000 in
theorem out_after2 : after hostOps2 V (Proc.devRef .tc main_v65)
    = Gcn.aggregate7 (F := F) (V (Proc.devRef .tc main_v49)) (V (Proc.devRef .tc main_v3)) (V (Proc.devRef .tc main_v6))
        (V (Proc.devRef .tc main_v31)) (V (Proc.devRef .tc main_arg4)) := by
  after_results_simp
  rfl

end Cert.KernelIdeal.Host

end
-- ==== Proof.KernelDense.lean ====
/-
  The two pipelined regions of the idealized kernel, each read as ONE function of the arrays it finds: a dense product.

  Each region runs a 20-point grid over row blocks of 5000 rows. At point `t` the body loads rows `5000·t …` of the left
  operand and the whole right operand, rounds both to bf16 (the identity on the extended reals), multiplies them on the
  matrix unit into a zero accumulator, and stores the block; the block is written back to rows `5000·t …` of the result.
  Row `r` of a product needs row `r` of the left factor only, so each written block is a block of the product of the
  whole arrays, and the twenty blocks tile the result.
-/
import proofs.«124988_j66297115181468_2_alg».proof.Proof.Gen.KernelIdeal.Frame
import proofs.«124988_j66297115181468_2_alg».proof.Proof.LibDense
import Idealize.ShloMosaic.Lib.Pipeline.Value

set_option maxRecDepth 16384

noncomputable section

namespace Cert.KernelIdeal.Dense

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: `x · W1` in 5000-row blocks, 20 grid points -/

theorem lhs_row0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs_col0 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's one stored value: the operands rounded to bf16 (the identity on the extended reals), multiplied by the matrix
    unit into a zero accumulator — the dense product of the two loaded blocks. -/
theorem pay0_eq (x0 : Vec Ideal S5000x128 .f32) (x1 : Vec Ideal S128x64 .f32) : k0_pay1 x0 x1 = LibDense.denseProd x0 x1 := by
  show FloatOps.matmul (F := Ideal) (φ₁ := .bf16) (φ₂ := .bf16) dot_S5000x128_S128x64_S5000x64_1_0_0_1_n_n none x0 x1 (constant S5000x64 .f32 0x00000000#32) = _
  exact LibDense.matmul_zero_eq (φ₁ := .bf16) (φ₂ := .bf16) dot_S5000x128_S128x64_S5000x64_1_0_0_1_n_n rfl rfl rfl rfl lhs_row0 rhs_col0 none x0 x1

/-- The index maps over the grid: point `t` takes row block `t` of the left operand and of the result, and the whole right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense product of the two operand arrays as the region finds them:
    rows `5000·t … 5000·t + 4999` of the product need the same rows of the left operand and all of the right one. -/
theorem flushed0 (c : Dev nD) (t : Fin cfg0.N) :
    (dat0 V c).flushed 2 t = ((cfg0.win 2).blk t).view.read (Elt Ideal) (LibDense.denseProd (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts0 t
  have ht : t.val < 20 := lt_of_lt_of_eq t.isLt N_0
  funext j
  obtain ⟨p, q, rfl⟩ : ∃ (p : Fin 5000) (q : Fin 64), j = ix2 p q := ⟨j 0, j 1, eq_ix2 j⟩
  have hemb : ((cfg0.win 2).blk t).view.emb (ix2 p q) = ix2 (n0 := 100000) (n1 := 64) ⟨t.val * 5000 + p.val, by omega⟩ q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (iblk0 V c 0 t) (iblk0 V c 1 t) (ix2 p q) = LibDense.denseProd (V c main_arg0) (V c main_arg1) (((cfg0.win 2).blk t).view.emb (ix2 p q))
  rw [hemb]
  refine (congrFun (pay0_eq _ _) _).trans (LibDense.denseProd_row _ _ _ _ p _ q (fun k => ?_) (fun k => ?_))
  · show V c main_arg0 (((cfg0.win 0).blk t).view.emb (ix2 p k)) = V c main_arg0 (ix2 _ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg1 (((cfg0.win 1).blk t).view.emb (ix2 k q)) = V c main_arg1 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty row blocks tile the result: row `r` lies in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, lt_of_lt_of_eq (by omega : (i 0).val / 5000 < 20) N_0.symm⟩
  obtain ⟨e0, e1, e2, e3, e4, e5⟩ := idx_facts0 t
  have htv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the dense product of the two operand arrays as the region found them. -/
theorem final0 (c : Dev nD) : (dat0 V c).arrAt 2 cfg0.N = LibDense.denseProd (V c main_arg0) (V c main_arg1) :=
  (dat0 V c).arrAt_eq_of_cover 2 _ (fun t _ => flushed0 V c t) cover0

/-! ## Region 1: `h · W2` in 5000-row blocks, 20 grid points -/

theorem lhs_row1 (i : S5000x7.Idx) (q : dot_S5000x64_S64x7_S5000x7_1_0_0_1_n_n.contr.Idx) :
    (dot_S5000x64_S64x7_S5000x7_1_0_0_1_n_n.lhsIdx i q 0).val = (i 0).val := by
  unfold DotDims.lhsIdx
  rw [dif_neg (show ¬(0 : Fin S5000x64.rank) ∈ dot_S5000x64_S64x7_S5000x7_1_0_0_1_n_n.lhsBatch by decide), dif_pos (show (0 : Fin S5000x64.rank) ∈ dot_S5000x64_S64x7_S5000x7_1_0_0_1_n_n.lhsNonContracting by decide)]
  rfl
theorem rhs_col1 (i : S5000x7.Idx) (q : dot_S5000x64_S64x7_S5000x7_1_0_0_1_n_n.contr.Idx) :
    (dot_S5000x64_S64x7_S5000x7_1_0_0_1_n_n.rhsIdx i q 1).val = (i 1).val := by
  unfold DotDims.rhsIdx
  rw [dif_neg (show ¬(1 : Fin S64x7.rank) ∈ dot_S5000x64_S64x7_S5000x7_1_0_0_1_n_n.rhsBatch by decide), dif_pos (show (1 : Fin S64x7.rank) ∈ dot_S5000x64_S64x7_S5000x7_1_0_0_1_n_n.rhsNonContracting by decide)]
  rfl

/-- The body's one stored value: the operands (the left one through a cast to its own shape) rounded to bf16 (the identity on
    the extended reals), multiplied by the matrix unit into a zero accumulator — the dense product of the two loaded blocks. -/
theorem pay1_eq (x0 : Vec Ideal S5000x64 .f32) (x1 : Vec Ideal S64x7 .f32) : k1_pay1 x0 x1 = LibDense.denseProd x0 x1 := by
  show FloatOps.matmul (F := Ideal) (φ₁ := .bf16) (φ₂ := .bf16) dot_S5000x64_S64x7_S5000x7_1_0_0_1_n_n none
    (shapeCast S5000x64 x0 shapeCasts_S5000x64_S5000x64) x1 (constant S5000x7 .f32 0x00000000#32) = _
  rw [shapeCast_self]
  exact LibDense.matmul_zero_eq (φ₁ := .bf16) (φ₂ := .bf16) dot_S5000x64_S64x7_S5000x7_1_0_0_1_n_n rfl rfl rfl rfl lhs_row1 rhs_col1 none x0 x1

/-- The index maps over the grid: point `t` takes row block `t` of the left operand and of the result, and the whole right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the dense product of the two operand arrays as the region finds them:
    rows `5000·t … 5000·t + 4999` of the product need the same rows of the left operand and all of the right one. -/
theorem flushed1 (c : Dev nD) (t : Fin cfg1.N) :
    (dat1 V c).flushed 2 t = ((cfg1.win 2).blk t).view.read (Elt Ideal) (LibDense.denseProd (V c main_v48) (V c main_arg3)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x7) hz]
  obtain ⟨e0, e1, e2, e3, e4, e5⟩ := idx_facts1 t
  have ht : t.val < 20 := lt_of_lt_of_eq t.isLt N_1
  funext j
  obtain ⟨p, q, rfl⟩ : ∃ (p : Fin 5000) (q : Fin 7), j = ix2 p q := ⟨j 0, j 1, eq_ix2 j⟩
  have hemb : ((cfg1.win 2).blk t).view.emb (ix2 p q) = ix2 (n0 := 100000) (n1 := 7) ⟨t.val * 5000 + p.val, by omega⟩ q := by
    funext a; apply Fin.ext
    match a with
    | ⟨0, _⟩ => show win1_2.index t (0 : Fin 2) * 5000 + 1 * p.val = t.val * 5000 + p.val; omega
    | ⟨1, _⟩ => show win1_2.index t (1 : Fin 2) * 7 + 1 * q.val = q.val; omega
  show k1_pay1 (iblk1 V c 0 t) (iblk1 V c 1 t) (ix2 p q) = LibDense.denseProd (V c main_v48) (V c main_arg3) (((cfg1.win 2).blk t).view.emb (ix2 p q))
  rw [hemb]
  refine (congrFun (pay1_eq _ _) _).trans (LibDense.denseProd_row _ _ _ _ p _ q (fun k => ?_) (fun k => ?_))
  · show V c main_v48 (((cfg1.win 0).blk t).view.emb (ix2 p k)) = V c main_v48 (ix2 _ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_arg3 (((cfg1.win 1).blk t).view.emb (ix2 k q)) = V c main_arg3 (ix2 k q)
    refine congrArg _ (funext fun a => Fin.ext ?_)
    match a with
    | ⟨0, _⟩ => show win1_1.index t (0 : Fin 2) * 64 + 1 * k.val = k.val; omega
    | ⟨1, _⟩ => show win1_1.index t (1 : Fin 2) * 7 + 1 * q.val = q.val; omega

/-- An index of the result array is in point `t`'s block iff each coordinate is in the block's range on its axis. -/
theorem mem_blk1 (t : Fin cfg1.N) (i : S100000x7.Idx) :
    i ∈ ((cfg1.win 2).blk t).view.set ↔ ∀ a : Fin 2, win1_2.index t a * S5000x7.size a ≤ (i a).val ∧ (i a).val < win1_2.index t a * S5000x7.size a + S5000x7.size a := by
  show i ∈ ((View.whole main_v49).slice (win1_2.rect t)).set ↔ _
  rw [View.set_slice_whole, Rect.mem_set_unit]
  exact Iff.rfl

/-- The twenty row blocks tile the result: row `r` lies in the block of point `r / 5000`. -/
theorem cover1 (i : S100000x7.Idx) : ∃ t : Fin cfg1.N, (cfg1.win 2).flush t = true ∧ i ∈ ((cfg1.win 2).blk t).view.set := by
  have hi0 : (i 0).val < 100000 := (i 0).isLt
  have hi1 : (i 1).val < 7 := (i 1).isLt
  let t : Fin cfg1.N := ⟨(i 0).val / 5000, lt_of_lt_of_eq (by omega : (i 0).val / 5000 < 20) N_1.symm⟩
  obtain ⟨e0, e1, e2, e3, e4, e5⟩ := idx_facts1 t
  have htv : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 7 ≤ (i 1).val ∧ (i 1).val < win1_2.index t (1 : Fin 2) * 7 + 7; omega

/-- The result array after the region: the dense product of the two operand arrays as the region found them. -/
theorem final1 (c : Dev nD) : (dat1 V c).arrAt 2 cfg1.N = LibDense.denseProd (V c main_v48) (V c main_arg3) :=
  (dat1 V c).arrAt_eq_of_cover 2 _ (fun t _ => flushed1 V c t) cover1

end Cert.KernelIdeal.Dense

end
-- ==== Proof.KernelValue.lean ====
/-
  What the idealized kernel computes: the network of `Cert.Gcn`.

  The result buffer ends at the last of eight boundary contents `W0 … W7` (`Gen.W7`: the launch memory folded through
  the seven segments). Walking the fold forwards, at the buffers later segments read: after the three opening stretches
  the edge lists `s`, `d` and the edge weights `w` are the functions of `edge_index` that `Cert.Gcn` names; region 0
  leaves `x · W1` (the dense product of the arrays it finds, which are still the arguments); stretch 1 leaves the first
  aggregation `h`; region 1 leaves `h · W2`; stretch 2 leaves the second aggregation: the network. A segment leaves every
  buffer it does not write as it found it.
-/
import proofs.«124988_j66297115181468_2_alg».proof.Proof.KernelRun
import proofs.«124988_j66297115181468_2_alg».proof.Proof.KernelHost
import proofs.«124988_j66297115181468_2_alg».proof.Proof.KernelDense

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge sources, the edge targets and the edge weights, as functions of the `edge_index` argument. -/
abbrev s : Cert.ReferenceIdeal.S1700000.Idx → BitVec 32 := Gcn.srcOf (m ((c : Thread nD τ).loc main_arg5))
abbrev d : Cert.ReferenceIdeal.S1700000.Idx → BitVec 32 := Gcn.dstOf (m ((c : Thread nD τ).loc main_arg5))
abbrev w : FVec Ideal Cert.ReferenceIdeal.S1700000 .f32 := Gcn.normOf (F := Ideal) (s m c) (d m c)

/-! ## After stretch 0 -/

theorem W1_src : W1 m ρ c (Proc.devRef .tc main_v3) = s m c := Host.src_after0 (W0 m ρ c)
theorem W1_dst : W1 m ρ c (Proc.devRef .tc main_v6) = d m c := Host.dst_after0 (W0 m ρ c)
theorem W1_arg0 : W1 m ρ c (Proc.devRef .tc main_arg0) = m ((c : Thread nD τ).loc main_arg0) := (Host.keeps0 (W0 m ρ c)).1
theorem W1_arg1 : W1 m ρ c (Proc.devRef .tc main_arg1) = m ((c : Thread nD τ).loc main_arg1) := (Host.keeps0 (W0 m ρ c)).2.1
theorem W1_arg2 : W1 m ρ c (Proc.devRef .tc main_arg2) = m ((c : Thread nD τ).loc main_arg2) := (Host.keeps0 (W0 m ρ c)).2.2.1
theorem W1_arg3 : W1 m ρ c (Proc.devRef .tc main_arg3) = m ((c : Thread nD τ).loc main_arg3) := (Host.keeps0 (W0 m ρ c)).2.2.2.1
theorem W1_arg4 : W1 m ρ c (Proc.devRef .tc main_arg4) = m ((c : Thread nD τ).loc main_arg4) := (Host.keeps0 (W0 m ρ c)).2.2.2.2

/-! ## After stretch 0_1: `dinv` -/

theorem W1_pos : W1 m ρ c (Proc.devRef .tc main_v12)
    = cmpf (F := Ideal) .ogt (Gcn.degOf (F := Ideal) (d m c)) (broadcastInDim S100000 ![] bcast_S_S100000 (constant S_ .f32 0x00000000#32)) :=
  Host.pos_after0 (W0 m ρ c)
theorem W1_rsq : W1 m ρ c (Proc.devRef .tc main_v15)
    = Host.divf (broadcastInDim S100000 ![] bcast_S_S100000 (constant S_ .f32 0x3F800000#32)) (Host.sqrt (Gcn.degOf (F := Ideal) (d m c))) :=
  Host.rsq_after0 (W0 m ρ c)
theorem W1_zero : W1 m ρ c (Proc.devRef .tc main_cst_3) = constant (F := Ideal) S_ .f32 0x00000000#32 := Host.zero_after0 (W0 m ρ c)

theorem W2_dinv : W2 m ρ c (Proc.devRef .tc main_v16) = Gcn.dinvOf (F := Ideal) (d m c) := by
  refine (Host.dinv_after0_1 (W1 m ρ c)).trans ?_
  rw [W1_pos m ρ c, W1_rsq m ρ c, W1_zero m ρ c]
  rfl
theorem W2_src : W2 m ρ c (Proc.devRef .tc main_v3) = s m c := (Host.keeps0_1 (W1 m ρ c)).1.trans (W1_src m ρ c)
theorem W2_dst : W2 m ρ c (Proc.devRef .tc main_v6) = d m c := (Host.keeps0_1 (W1 m ρ c)).2.1.trans (W1_dst m ρ c)
theorem W2_arg0 : W2 m ρ c (Proc.devRef .tc main_arg0) = m ((c : Thread nD τ).loc main_arg0) := (Host.keeps0_1 (W1 m ρ c)).2.2.1.trans (W1_arg0 m ρ c)
theorem W2_arg1 : W2 m ρ c (Proc.devRef .tc main_arg1) = m ((c : Thread nD τ).loc main_arg1) := (Host.keeps0_1 (W1 m ρ c)).2.2.2.1.trans (W1_arg1 m ρ c)
theorem W2_arg2 : W2 m ρ c (Proc.devRef .tc main_arg2) = m ((c : Thread nD τ).loc main_arg2) := (Host.keeps0_1 (W1 m ρ c)).2.2.2.2.1.trans (W1_arg2 m ρ c)
theorem W2_arg3 : W2 m ρ c (Proc.devRef .tc main_arg3) = m ((c : Thread nD τ).loc main_arg3) := (Host.keeps0_1 (W1 m ρ c)).2.2.2.2.2.1.trans (W1_arg3 m ρ c)
theorem W2_arg4 : W2 m ρ c (Proc.devRef .tc main_arg4) = m ((c : Thread nD τ).loc main_arg4) := (Host.keeps0_1 (W1 m ρ c)).2.2.2.2.2.2.trans (W1_arg4 m ρ c)

/-! ## After stretch 0_2 (region 0's entry): the edge weights -/

theorem W3_norm : W3 m ρ c (Proc.devRef .tc main_v31) = w m c := by
  refine (Host.norm_after0_2 (W2 m ρ c)).trans ?_
  rw [W2_dinv m ρ c, W2_src m ρ c, W2_dst m ρ c]
  rfl
theorem W3_src : W3 m ρ c (Proc.devRef .tc main_v3) = s m c := (Host.keeps0_2 (W2 m ρ c)).1.trans (W2_src m ρ c)
theorem W3_dst : W3 m ρ c (Proc.devRef .tc main_v6) = d m c := (Host.keeps0_2 (W2 m ρ c)).2.1.trans (W2_dst m ρ c)
theorem W3_arg0 : W3 m ρ c (Proc.devRef .tc main_arg0) = m ((c : Thread nD τ).loc main_arg0) := (Host.keeps0_2 (W2 m ρ c)).2.2.1.trans (W2_arg0 m ρ c)
theorem W3_arg1 : W3 m ρ c (Proc.devRef .tc main_arg1) = m ((c : Thread nD τ).loc main_arg1) := (Host.keeps0_2 (W2 m ρ c)).2.2.2.1.trans (W2_arg1 m ρ c)
theorem W3_arg2 : W3 m ρ c (Proc.devRef .tc main_arg2) = m ((c : Thread nD τ).loc main_arg2) := (Host.keeps0_2 (W2 m ρ c)).2.2.2.2.1.trans (W2_arg2 m ρ c)
theorem W3_arg3 : W3 m ρ c (Proc.devRef .tc main_arg3) = m ((c : Thread nD τ).loc main_arg3) := (Host.keeps0_2 (W2 m ρ c)).2.2.2.2.2.1.trans (W2_arg3 m ρ c)
theorem W3_arg4 : W3 m ρ c (Proc.devRef .tc main_arg4) = m ((c : Thread nD τ).loc main_arg4) := (Host.keeps0_2 (W2 m ρ c)).2.2.2.2.2.2.trans (W2_arg4 m ρ c)

/-! ## After region 0: `x · W1` -/

theorem W4_pre1 : W4 m ρ c (Proc.devRef .tc main_v32) = LibDense.denseProd (m ((c : Thread nD τ).loc main_arg0)) (m ((c : Thread nD τ).loc main_arg1)) := by
  refine (W4_arr m ρ c 2).trans ((Dense.final0 (V3 m ρ) c).trans ?_)
  show LibDense.denseProd (W3 m ρ c (Proc.devRef .tc main_arg0)) (W3 m ρ c (Proc.devRef .tc main_arg1)) = _
  rw [W3_arg0 m ρ c, W3_arg1 m ρ c]
theorem W4_src : W4 m ρ c (Proc.devRef .tc main_v3) = s m c := (W4_of_ne m ρ c main_v3 (by decide)).trans (W3_src m ρ c)
theorem W4_dst : W4 m ρ c (Proc.devRef .tc main_v6) = d m c := (W4_of_ne m ρ c main_v6 (by decide)).trans (W3_dst m ρ c)
theorem W4_norm : W4 m ρ c (Proc.devRef .tc main_v31) = w m c := (W4_of_ne m ρ c main_v31 (by decide)).trans (W3_norm m ρ c)
theorem W4_arg2 : W4 m ρ c (Proc.devRef .tc main_arg2) = m ((c : Thread nD τ).loc main_arg2) := (W4_of_ne m ρ c main_arg2 (by decide)).trans (W3_arg2 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)

/-! ## After stretch 1 (region 1's entry): the first aggregation -/

/-- The hidden layer: the first dense product aggregated over the edges, plus the first bias. -/
abbrev hidden : FVec Ideal Cert.ReferenceIdeal.S100000x64 .f32 :=
  Gcn.aggregate64 (F := Ideal) (LibDense.denseProd (m ((c : Thread nD τ).loc main_arg0)) (m ((c : Thread nD τ).loc main_arg1))) (s m c) (d m c) (w m c) (m ((c : Thread nD τ).loc main_arg2))

theorem W5_hidden : W5 m ρ c (Proc.devRef .tc main_v48) = hidden m c := by
  refine (Host.hidden_after1 (W4 m ρ c)).trans ?_
  rw [W4_pre1 m ρ c, W4_src m ρ c, W4_dst m ρ c, W4_norm m ρ c, W4_arg2 m ρ c]
theorem W5_src : W5 m ρ c (Proc.devRef .tc main_v3) = s m c := (Host.keeps1 (W4 m ρ c)).1.trans (W4_src m ρ c)
theorem W5_dst : W5 m ρ c (Proc.devRef .tc main_v6) = d m c := (Host.keeps1 (W4 m ρ c)).2.1.trans (W4_dst m ρ c)
theorem W5_norm : W5 m ρ c (Proc.devRef .tc main_v31) = w m c := (Host.keeps1 (W4 m ρ c)).2.2.1.trans (W4_norm m ρ c)
theorem W5_arg3 : W5 m ρ c (Proc.devRef .tc main_arg3) = m ((c : Thread nD τ).loc main_arg3) := (Host.keeps1 (W4 m ρ c)).2.2.2.1.trans (W4_arg3 m ρ c)
theorem W5_arg4 : W5 m ρ c (Proc.devRef .tc main_arg4) = m ((c : Thread nD τ).loc main_arg4) := (Host.keeps1 (W4 m ρ c)).2.2.2.2.trans (W4_arg4 m ρ c)

/-! ## After region 1: `h · W2` -/

theorem W6_pre2 : W6 m ρ c (Proc.devRef .tc main_v49) = LibDense.denseProd (hidden m c) (m ((c : Thread nD τ).loc main_arg3)) := by
  refine (W6_arr m ρ c 2).trans ((Dense.final1 (V5 m ρ) c).trans ?_)
  show LibDense.denseProd (W5 m ρ c (Proc.devRef .tc main_v48)) (W5 m ρ c (Proc.devRef .tc main_arg3)) = _
  rw [W5_hidden m ρ c, W5_arg3 m ρ c]
theorem W6_src : W6 m ρ c (Proc.devRef .tc main_v3) = s m c := (W6_of_ne m ρ c main_v3 (by decide)).trans (W5_src m ρ c)
theorem W6_dst : W6 m ρ c (Proc.devRef .tc main_v6) = d m c := (W6_of_ne m ρ c main_v6 (by decide)).trans (W5_dst m ρ c)
theorem W6_norm : W6 m ρ c (Proc.devRef .tc main_v31) = w m c := (W6_of_ne m ρ c main_v31 (by decide)).trans (W5_norm m ρ c)
theorem W6_arg4 : W6 m ρ c (Proc.devRef .tc main_arg4) = m ((c : Thread nD τ).loc main_arg4) := (W6_of_ne m ρ c main_arg4 (by decide)).trans (W5_arg4 m ρ c)

/-! ## After stretch 2: the network -/

theorem W7_out : W7 m ρ c (Proc.devRef .tc main_v65)
    = Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Host.out_after2 (W6 m ρ c)).trans ?_
  rw [W6_pre2 m ρ c, W6_src m ρ c, W6_dst m ρ c, W6_norm m ρ c, W6_arg4 m ρ c]
  rfl

/-- The run, read: the result array ends at the network of the six argument arrays, which end as launched. -/
theorem run : θ_run defs (onTc (τ := τ) (main (F := Ideal))) ⟨m, fun _ => 0, ρ⟩ (fun r => ∀ c : Dev nD,
      r.2.mem ((c.tc : Thread nD τ).loc main_v65)
        = Gcn.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W7_out m ρ c), (h c).2⟩) (Run.run_main m ρ)

end Cert.KernelIdeal.Result

end
-- ==== Proof.RefValue.lean ====
/-
  What the idealized reference computes: the network of `Cert.Gcn`.

  Its run ends with the result buffer at the composed term of its 83 array operations. That term is, read off as it
  stands, the second aggregation of the second `dot_general` of the first aggregation of the first `dot_general`, the
  edge lists and weights being functions of `edge_index` alone (`res_eq`). On the extended reals each `dot_general`
  contracts axis 1 of its left operand with axis 0 of its right one and so is the dense product (`LibDense.dotGeneral_eq`).
-/
import proofs.«124988_j66297115181468_2_alg».proof.Proof.RefRunPatched
import proofs.«124988_j66297115181468_2_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The run's result term, regrouped: nothing is computed, the shared subterms are named. -/
theorem res_eq (m : (ℓ : Loc nD τ sig) → Buf (Elt F) ℓ) (c : Dev nD) :
    Cert.ReferenceIdeal.ValueP.res_main_v65 (F := F) m c
      = Gcn.aggregate7 (F := F)
          (Host.dotGeneral dot_S100000x64_S64x7_S100000x7_1_0_0_1_n_n none
            (Gcn.aggregate64 (F := F)
              (Host.dotGeneral dot_S100000x128_S128x64_S100000x64_1_0_0_1_n_n none (m ((c.tc : Thread nD τ).loc main_arg0)) (m ((c.tc : Thread nD τ).loc main_arg1)))
              (Gcn.srcOf (m ((c.tc : Thread nD τ).loc main_arg5))) (Gcn.dstOf (m ((c.tc : Thread nD τ).loc main_arg5)))
              (Gcn.normOf (F := F) (Gcn.srcOf (m ((c.tc : Thread nD τ).loc main_arg5))) (Gcn.dstOf (m ((c.tc : Thread nD τ).loc main_arg5))))
              (m ((c.tc : Thread nD τ).loc main_arg2)))
            (m ((c.tc : Thread nD τ).loc main_arg3)))
          (Gcn.srcOf (m ((c.tc : Thread nD τ).loc main_arg5))) (Gcn.dstOf (m ((c.tc : Thread nD τ).loc main_arg5)))
          (Gcn.normOf (F := F) (Gcn.srcOf (m ((c.tc : Thread nD τ).loc main_arg5))) (Gcn.dstOf (m ((c.tc : Thread nD τ).loc main_arg5))))
          (m ((c.tc : Thread nD τ).loc main_arg4)) := by
  unfold Cert.ReferenceIdeal.ValueP.res_main_v65; rfl

/-! ## The two `dot_general`s are dense products: at output (r, q) the left operand is read along row r, the right one
    down column q -/

theorem lhs_row1 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem rhs_col1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
theorem lhs_row2 (i : S100000x7.Idx) (q : dot_S100000x64_S64x7_S100000x7_1_0_0_1_n_n.contr.Idx) :
    (dot_S100000x64_S64x7_S100000x7_1_0_0_1_n_n.lhsIdx i q 0).val = (i 0).val := by
  unfold DotDims.lhsIdx
  rw [dif_neg (show ¬(0 : Fin S100000x64.rank) ∈ dot_S100000x64_S64x7_S100000x7_1_0_0_1_n_n.lhsBatch by decide), dif_pos (show (0 : Fin S100000x64.rank) ∈ dot_S100000x64_S64x7_S100000x7_1_0_0_1_n_n.lhsNonContracting by decide)]
  rfl
theorem rhs_col2 (i : S100000x7.Idx) (q : dot_S100000x64_S64x7_S100000x7_1_0_0_1_n_n.contr.Idx) :
    (dot_S100000x64_S64x7_S100000x7_1_0_0_1_n_n.rhsIdx i q 1).val = (i 1).val := by
  unfold DotDims.rhsIdx
  rw [dif_neg (show ¬(1 : Fin S64x7.rank) ∈ dot_S100000x64_S64x7_S100000x7_1_0_0_1_n_n.rhsBatch by decide), dif_pos (show (1 : Fin S64x7.rank) ∈ dot_S100000x64_S64x7_S100000x7_1_0_0_1_n_n.rhsNonContracting by decide)]
  rfl

theorem dot1_eq (x : S100000x128.Idx → EReal) (w : S128x64.Idx → EReal) :
    Host.dotGeneral (F := Ideal) (φ₁ := .f32) (φ₂ := .f32) dot_S100000x128_S128x64_S100000x64_1_0_0_1_n_n none x w = LibDense.denseProd x w :=
  LibDense.dotGeneral_eq dot_S100000x128_S128x64_S100000x64_1_0_0_1_n_n rfl rfl rfl rfl lhs_row1 rhs_col1 none .single x w
theorem dot2_eq (x : S100000x64.Idx → EReal) (w : S64x7.Idx → EReal) :
    Host.dotGeneral (F := Ideal) (φ₁ := .f32) (φ₂ := .f32) dot_S100000x64_S64x7_S100000x7_1_0_0_1_n_n none x w = LibDense.denseProd x w :=
  LibDense.dotGeneral_eq dot_S100000x64_S64x7_S100000x7_1_0_0_1_n_n rfl rfl rfl rfl lhs_row2 rhs_col2 none .single x w

/-- On the extended reals the reference's result is the network of its six arguments. -/
theorem res_network (m : (ℓ : Loc nD τ sig) → Buf (Elt Ideal) ℓ) (c : Dev nD) :
    Cert.ReferenceIdeal.ValueP.res_main_v65 (F := Ideal) m c
      = Gcn.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_eq]
  unfold Gcn.network
  rw [dot1_eq, dot2_eq]

end Cert.ReferenceIdeal.RefValue

end
-- ==== Proof.lean ====
/-
  `Cert.Claim` for a two-layer graph convolution: a kernel whose two dense products run as row-blocked pipelined regions
  on the matrix unit (operands rounded to bf16, a zero accumulator), against a reference that computes them by one
  `dot_general` each; everything else — the self loops, the degree normalisation, the gather of the rows at the edge
  sources, their weighting, the scatter-add at the edge targets, the biases — is the same array operations in both.

  On the extended reals both programs compute `Cert.Gcn.network` of the six arguments: the rounding is the identity, and a
  product into a zero accumulator and a `dot_general` are the same sum `Σ_k x[r, k] · W[k, q]` (`Cert.LibDense`). No law
  of the extended reals beyond `0 + a = a` is used, so the finiteness precondition is never opened.
  The three frames: both kernels' are the generated ones; the reference's is its run with the result dropped.
  `preserves` has no conjunct (the idealization rewrote nothing).
-/
import proofs.«124988_j66297115181468_2_alg».proof.Defs
import proofs.«124988_j66297115181468_2_alg».proof.Proof.Gen.Kernel
import proofs.«124988_j66297115181468_2_alg».proof.Proof.Gen.Kernel.Skeleton
import proofs.«124988_j66297115181468_2_alg».proof.Proof.Gen.Kernel.Launch
import proofs.«124988_j66297115181468_2_alg».proof.Proof.Gen.Kernel.Points
import proofs.«124988_j66297115181468_2_alg».proof.Proof.Gen.Kernel.Frame
import proofs.«124988_j66297115181468_2_alg».proof.Proof.Gen.KernelIdeal
import proofs.«124988_j66297115181468_2_alg».proof.Proof.Gen.KernelIdeal.Skeleton
import proofs.«124988_j66297115181468_2_alg».proof.Proof.Gen.KernelIdeal.Launch
import proofs.«124988_j66297115181468_2_alg».proof.Proof.Gen.KernelIdeal.Points
import proofs.«124988_j66297115181468_2_alg».proof.Proof.Gen.KernelIdeal.Frame
import proofs.«124988_j66297115181468_2_alg».proof.Proof.Gen.ReferenceIdeal
import proofs.«124988_j66297115181468_2_alg».proof.Proof.Gen.Pre_finite_inputs
import proofs.«124988_j66297115181468_2_alg».proof.Proof.KernelValue
import proofs.«124988_j66297115181468_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at `Cert.Gcn.network` of their argument arrays, and the argument arrays agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.RefValue.res_network, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
